-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_arg4 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S1x10000x128 .f32) (main_arg1 : FVec F S1x10000x10000 .f32) (main_arg2 : FVec F S128x128 .f32) (main_arg3 : FVec F S128 .f32) (main_arg4 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x10000 .f32 := Host.absf main_arg1
  let main_cst_0 : FVec F S_ .f32 := constant S_ .f32 0x7F800000#32
  let main_v5 : FVec F S1x10000x10000 .f32 := broadcastInDim S1x10000x10000 ![] bcast_S_S1x10000x10000 main_cst_0
  let main_v6 : IVec S1x10000x10000 1 := cmpf .olt main_v4 main_v5
  let main_c_1 : IVec S_ 1 := constantI S_ 1 1#1
  let main_v7 : IVec S_ 1 := (fun x v => Host.reduce IntOp.andi x v reducesTo_S1x10000x10000_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S400x10000 : Shape := ⟨2, ![400, 10000]⟩
abbrev S400x128 : Shape := ⟨2, ![400, 128]⟩

abbrev nBuf : Space → Nat
  | .hbm => 12
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S10000x128, .f32⟩
  | .hbm, ⟨6, _⟩ => ⟨S10000x10000, .f32⟩
  | .hbm, ⟨7, _⟩ => ⟨S1x128, .f32⟩
  | .hbm, ⟨8, _⟩ => ⟨S1x1, .f32⟩
  | .hbm, ⟨9, _⟩ => ⟨S1x128, .f32⟩
  | .hbm, ⟨10, _⟩ => ⟨S10000x128, .f32⟩
  | .hbm, ⟨11, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S1x128, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S1x10000x10000_S10000x10000 : S1x10000x10000.ShapeCasts S10000x10000
  shapeCasts_S128_S1x128 : S128.ShapeCasts S1x128
  shapeCasts_S_S1x1 : S_.ShapeCasts S1x1
  bcast_S1x1_S1x128_0_1 : S1x1.BroadcastsInDim S1x128 (![0, 1] : Fin 2 → Fin S1x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  bcast_S10000x128_S1x10000x128_1_2 : S10000x128.BroadcastsInDim S1x10000x128 (![1, 2] : Fin 2 → Fin S1x10000x128.rank)
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1x1x128 : Shape := ⟨3, ![1, 1, 128]⟩

abbrev nBuf : Space → Nat
  | .hbm => 16
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S1x10000x128, .f32⟩
  | .hbm, ⟨6, _⟩ => ⟨S1x10000x128, .f32⟩
  | .hbm, ⟨7, _⟩ => ⟨S1x1x128, .f32⟩
  | .hbm, ⟨8, _⟩ => ⟨S1x10000x128, .f32⟩
  | .hbm, ⟨9, _⟩ => ⟨S1x10000x128, .f32⟩
  | .hbm, ⟨10, _⟩ => ⟨S_, .f32⟩
  | .hbm, ⟨11, _⟩ => ⟨S1x10000x128, .f32⟩
  | .hbm, ⟨12, _⟩ => ⟨S1x10000x128, .i1⟩
  | .hbm, ⟨13, _⟩ => ⟨S1x10000x128, .f32⟩
  | .hbm, ⟨14, _⟩ => ⟨S1x10000x128, .f32⟩
  | .hbm, ⟨15, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  bcast_S_S1x10000x128 : S_.BroadcastsInDim S1x10000x128 (![] : Fin 0 → Fin S1x10000x128.rank)
  dot_S1x10000x128_S128x128_S1x10000x128_2_1_01_0_n_n_wf : DotDims.WF S1x10000x128 S128x128 S1x10000x128 [2] [1] [0, 1] [0] [] []
  dot_S1x10000x10000_S1x10000x128_S1x10000x128_2_1_1_2_0_0_wf : DotDims.WF S1x10000x10000 S1x10000x128 S1x10000x128 [2] [1] [1] [2] [0] [0]

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S1x10000x10000_S1x10000x128_S1x10000x128_2_1_1_2_0_0 : DotDims S1x10000x10000 S1x10000x128 S1x10000x128 where
  lhsContracting := [2]
  rhsContracting := [1]
  lhsNonContracting := [1]
  rhsNonContracting := [2]
  lhsBatch := [0]
  rhsBatch := [0]
  wf := dot_S1x10000x10000_S1x10000x128_S1x10000x128_2_1_1_2_0_0_wf

class Facts : Prop extends Facts₀ where

variable [Facts]
-- ==== Proof.Found.lean ====
/-
  What the kernel's body leaves behind at each grid point, as values.

  The body keeps the mapped features in a buffer of its own that lives across the 25 grid points.  At the
  first point it computes them from the whole feature matrix and the whole weight matrix, stores them, reads them
  back, and then evaluates its block of 400 output rows; at every later point it only reads them and evaluates
  its block.  So after every point the buffer holds the features computed at the first point, and the output
  block of point t is the block evaluation on point t's adjacency rows over those same features: the first by
  the body's one store and read-back, the second by induction on the point.
-/
import proofs.«112729_g62105227100251_cont_9to1c4b_790_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- At the first point the buffer of mapped features ends at the features of the whole feature and weight matrices. -/
theorem scratch_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x128 .f32) (h5 : a5.IsWhole) (a6 : Memref sig .tc .vmem S400x128 .f32) (h6 : a6.IsWhole) (a7 : Memref sig .tc .vmem S10000x128 .bf16) (h7 : a7.IsWhole) (hc : cond0_0 i) (x0 : Vec F S10000x128 .f32) (x1 : Vec F S128x128 .f32) (x2 : Vec F S400x10000 .f32) (x3 : Vec F S1x128 .f32) (x4 : Vec F S1x128 .f32) :
    sout0_A_0 c i a1 h1 a2 h2 a3 h3 a4 h4 a5 h5 a6 h6 a7 h7 hc x0 x1 x2 x3 x4 = k0_pay1 x0 x1 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, View.ld_unit_zero (S := S10000x128) hz,
    View.ld_unit_zero (S := S128x128) hz]

/-- At the first point the output block is the block evaluation over the features just computed (stored, then
    read back whole). -/
theorem out_first (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x128 .f32) (h5 : a5.IsWhole) (a6 : Memref sig .tc .vmem S400x128 .f32) (h6 : a6.IsWhole) (a7 : Memref sig .tc .vmem S10000x128 .bf16) (h7 : a7.IsWhole) (hc : cond0_0 i) (x0 : Vec F S10000x128 .f32) (x1 : Vec F S128x128 .f32) (x2 : Vec F S400x10000 .f32) (x3 : Vec F S1x128 .f32) (x4 : Vec F S1x128 .f32) :
    out0_A_5 c i a1 h1 a2 h2 a3 h3 a4 h4 a5 h5 a6 h6 a7 h7 hc x0 x1 x2 x3 x4 = k0_pay2 x2 (k0_pay1 x0 x1) x3 x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz, View.readCov_unit_zero (S := S10000x128) _ hz]
  simp only [View.readAt_eq_ld, h1.read_unread, h2.read_unread, h3.read_unread, h4.read_unread, h5.read_unread,
    View.ld_unit_zero (S := S10000x128) hz, View.ld_unit_zero (S := S128x128) hz, View.ld_unit_zero (S := S400x10000) hz,
    View.ld_unit_zero (S := S1x128) hz]

/-- At a later point the output block is the block evaluation over whatever features the buffer holds. -/
theorem out_later (c : Dev nD) (i : grid0.Coords) (a1 : Memref sig .tc .vmem S10000x128 .f32) (h1 : a1.IsWhole) (a2 : Memref sig .tc .vmem S128x128 .f32) (h2 : a2.IsWhole) (a3 : Memref sig .tc .vmem S400x10000 .f32) (h3 : a3.IsWhole) (a4 : Memref sig .tc .vmem S1x128 .f32) (h4 : a4.IsWhole) (a5 : Memref sig .tc .vmem S1x128 .f32) (h5 : a5.IsWhole) (a6 : Memref sig .tc .vmem S400x128 .f32) (h6 : a6.IsWhole) (a7 : Memref sig .tc .vmem S10000x128 .bf16) (h7 : a7.IsWhole) (hc : ¬cond0_0 i) (x0 : Vec F S10000x128 .f32) (x1 : Vec F S128x128 .f32) (x2 : Vec F S400x10000 .f32) (x3 : Vec F S1x128 .f32) (x4 : Vec F S1x128 .f32) (xs : Vec F S10000x128 .bf16) :
    out0_B_5 c i a1 h1 a2 h2 a3 h3 a4 h4 a5 h5 a6 h6 a7 h7 hc x0 x1 x2 x3 x4 xs = k0_pay2 x2 xs x3 x4 := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  sl_unfold_words
  rw [View.canon_unit_zero hz]
  simp only [View.readAt_eq_ld, h3.read_unread, h4.read_unread, h5.read_unread, h7.read_unread,
    View.ld_unit_zero (S := S10000x128) hz, View.ld_unit_zero (S := S400x10000) hz, View.ld_unit_zero (S := S1x128) hz]

variable (m : (ℓ : Loc nD τ sig) → Buf (Elt F) ℓ)

theorem npts : cfg0.N = 25 := N_0

/-- The first grid point. -/
abbrev first : Fin cfg0.N := ⟨0, by rw [npts]; decide⟩

/-- The mapped features the first point computes: from the blocks of the feature and weight matrices it sees
    (each block is its whole matrix). -/
def feats (c : Dev nD) : Vec F S10000x128 .bf16 := k0_pay1 (iblk m c 0 first) (iblk m c 1 first)

/-- After point n: the output block is point n's block evaluation over those features, and the buffer still holds them. -/
theorem outsAt_eq (c : Dev nD) : ∀ (n : ℕ) (h : n < cfg0.N),
    outsAt0 m c n h = (k0_pay2 (iblk m c 2 ⟨n, h⟩) (feats m c) (iblk m c 3 ⟨n, h⟩) (iblk m c 4 ⟨n, h⟩), feats m c)
  | 0, h => by
    rw [outsAt0_A m c ⟨0, h⟩ rfl, out_first, scratch_first]
    rfl
  | n + 1, h => by
    have hN : cfg0.N = 25 := npts
    have hB : ¬(⟨n + 1, h⟩ : Fin cfg0.N).val % 25 = 0 := by dsimp only; omega
    rw [outsAt0_B m c ⟨n + 1, h⟩ hB, out_later]
    unfold sout0_B_0
    show (k0_pay2 _ (outsAt0 m c n _).2 _ _, (outsAt0 m c n _).2) = _
    rw [outsAt_eq c n]

end Cert.KernelIdeal.Found

end
-- ==== Proof.Spec.lean ====
/-
  One graph-convolution layer as a function of its five arguments, index by index, on the extended reals.

  The node features are first mapped linearly: row n of the features is  feat n o = Σ_d seq(0, n, d) · W(o, d).
  Every node then gathers its neighbours' features through the dense adjacency matrix and adds the bias:
      pre n o = (Σ_k adj(0, n, k) · feat k o) + bias o,
  and the layer's value is the parametric rectifier of that:  pre  where  pre ≥ 0,  and  slope · pre  elsewhere.
  The same function is also written over the arguments with their unit axes dropped or added (the forms a
  row-blocked evaluation works on), and the two writings agree as soon as the re-laid arguments read the
  original ones at the same row-major position.  No algebraic law is involved: both are one nest of sums.
-/
import Idealize.ShloMosaic.PureOps.Ideal
import Idealize.ShloMosaic.Lib.ValueIdx

noncomputable section

open scoped BigOperators

namespace Cert.GraphConv

open Idealize.ShloMosaic Idealize.ShloMosaic.ValueIdx

/-- The parametric rectifier on the extended reals: `x` where `x ≥ 0`, `slope · x` elsewhere. -/
def prelu (slope x : EReal) : EReal :=
  Scalar.select (FloatOps.cmpf (F := Ideal) (φ := .f32) .oge x (Ideal.ofBits .f32 0x00000000#32)) x (slope * x)

/-- The linearly mapped features of node `n`, output channel `o`. -/
def feat (seq : FVec Ideal ⟨3, ![1, 10000, 128]⟩ .f32) (W : FVec Ideal ⟨2, ![128, 128]⟩ .f32) (n : Fin 10000) (o : Fin 128) : EReal :=
  ∑ d : Fin 128, seq (ix3 0 n d) * W (ix2 o d)

/-- What node `n` gathers through the adjacency matrix, plus the bias. -/
def pre (seq : FVec Ideal ⟨3, ![1, 10000, 128]⟩ .f32) (adj : FVec Ideal ⟨3, ![1, 10000, 10000]⟩ .f32)
    (W : FVec Ideal ⟨2, ![128, 128]⟩ .f32) (bias : FVec Ideal ⟨1, ![128]⟩ .f32) (n : Fin 10000) (o : Fin 128) : EReal :=
  (∑ k : Fin 10000, adj (ix3 0 n k) * feat seq W k o) + bias (ix1 o)

/-- The layer: the rectified gathered features, with the leading batch axis of extent one. -/
def layer (seq : FVec Ideal ⟨3, ![1, 10000, 128]⟩ .f32) (adj : FVec Ideal ⟨3, ![1, 10000, 10000]⟩ .f32)
    (W : FVec Ideal ⟨2, ![128, 128]⟩ .f32) (bias : FVec Ideal ⟨1, ![128]⟩ .f32) (slope : FVec Ideal ⟨0, ![]⟩ .f32) :
    FVec Ideal ⟨3, ![1, 10000, 128]⟩ .f32 :=
  fun i => prelu (slope ix0) (pre seq adj W bias (i 1) (i 2))

/-- The same over re-laid arguments: the features and the adjacency as plain matrices, the bias and the slope as
    rows of 128 channels. -/
def featRows (s2 : FVec Ideal ⟨2, ![10000, 128]⟩ .f32) (W : FVec Ideal ⟨2, ![128, 128]⟩ .f32) (n : Fin 10000) (o : Fin 128) : EReal :=
  ∑ d : Fin 128, s2 (ix2 n d) * W (ix2 o d)

def preRows (s2 : FVec Ideal ⟨2, ![10000, 128]⟩ .f32) (a2 : FVec Ideal ⟨2, ![10000, 10000]⟩ .f32)
    (W : FVec Ideal ⟨2, ![128, 128]⟩ .f32) (b2 : FVec Ideal ⟨2, ![1, 128]⟩ .f32) (n : Fin 10000) (o : Fin 128) : EReal :=
  (∑ k : Fin 10000, a2 (ix2 n k) * featRows s2 W k o) + b2 (ix2 0 o)

def layerRows (s2 : FVec Ideal ⟨2, ![10000, 128]⟩ .f32) (a2 : FVec Ideal ⟨2, ![10000, 10000]⟩ .f32)
    (W : FVec Ideal ⟨2, ![128, 128]⟩ .f32) (b2 p2 : FVec Ideal ⟨2, ![1, 128]⟩ .f32) : FVec Ideal ⟨2, ![10000, 128]⟩ .f32 :=
  fun j => prelu (p2 (ix2 0 (j 1))) (preRows s2 a2 W b2 (j 0) (j 1))

/-- When the re-laid arguments read the original ones entry for entry, the two writings are one function. -/
theorem layerRows_eq (seq : FVec Ideal ⟨3, ![1, 10000, 128]⟩ .f32) (adj : FVec Ideal ⟨3, ![1, 10000, 10000]⟩ .f32)
    (W : FVec Ideal ⟨2, ![128, 128]⟩ .f32) (bias : FVec Ideal ⟨1, ![128]⟩ .f32) (slope : FVec Ideal ⟨0, ![]⟩ .f32)
    (s2 : FVec Ideal ⟨2, ![10000, 128]⟩ .f32) (a2 : FVec Ideal ⟨2, ![10000, 10000]⟩ .f32) (b2 p2 : FVec Ideal ⟨2, ![1, 128]⟩ .f32)
    (hs : ∀ n d, s2 (ix2 n d) = seq (ix3 0 n d)) (ha : ∀ n k, a2 (ix2 n k) = adj (ix3 0 n k))
    (hb : ∀ o, b2 (ix2 0 o) = bias (ix1 o)) (hp : ∀ o, p2 (ix2 0 o) = slope ix0) (n : Fin 10000) (o : Fin 128) :
    layerRows s2 a2 W b2 p2 (ix2 n o) = layer seq adj W bias slope (ix3 0 n o) := by
  have hf : ∀ k o, featRows s2 W k o = feat seq W k o := fun k o =>
    Finset.sum_congr rfl fun d _ => by rw [hs]
  show prelu (p2 (ix2 0 o)) (preRows s2 a2 W b2 n o) = prelu (slope ix0) (pre seq adj W bias n o)
  rw [hp]
  unfold preRows pre
  rw [hb]
  exact congrArg (fun z => prelu (slope ix0) (z + bias (ix1 o))) (Finset.sum_congr rfl fun k _ => by rw [ha, hf])

end Cert.GraphConv

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.Payload.lean ====
/-
  The body's two values read at an index, on the extended reals.

  The features: the matrix unit contracts the feature matrix with the weight matrix over the input channels
  (axis 1 of both), into the zero accumulator, so entry (n, o) is  Σ_d x(n, d) · w(o, d);  the changes of float
  format around it are the identity.  The output block: the matrix unit contracts the block's 400 adjacency rows
  with the features over the 10000 nodes, into the zero accumulator, the bias row is added to every row, and the
  rectifier selects between the sum and the slope row times the sum: at (r, o) this is the rectifier, at the
  slope's channel o, of  Σ_k a(r, k) · f(k, o) + b(0, o).
-/
import proofs.«112729_g62105227100251_cont_9to1c4b_790_3_alg».proof.Proof.Gen.KernelIdeal.Skeleton
import proofs.«112729_g62105227100251_cont_9to1c4b_790_3_alg».proof.Proof.Spec
import proofs.«112729_g62105227100251_cont_9to1c4b_790_3_alg».proof.Proof.LibRows
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.GraphConv Cert.Lib.Rows

/-! ## The two contractions as plain sums -/

theorem feat_lhs0 (j : S10000x128.Idx) (q : dot_S10000x128_S128x128_S10000x128_1_1_0_0_n_n.contr.Idx) : (dot_S10000x128_S128x128_S10000x128_1_1_0_0_n_n.lhsIdx j q 0).val = (j 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem feat_lhs1 (j : S10000x128.Idx) (q : dot_S10000x128_S128x128_S10000x128_1_1_0_0_n_n.contr.Idx) : (dot_S10000x128_S128x128_S10000x128_1_1_0_0_n_n.lhsIdx j q 1).val = (q ⟨0, by decide⟩).val :=
  dot_S10000x128_S128x128_S10000x128_1_1_0_0_n_n.lhsIdx_val_of_single rfl j q
theorem feat_rhs0 (j : S10000x128.Idx) (q : dot_S10000x128_S128x128_S10000x128_1_1_0_0_n_n.contr.Idx) : (dot_S10000x128_S128x128_S10000x128_1_1_0_0_n_n.rhsIdx j q 0).val = (j 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem feat_rhs1 (j : S10000x128.Idx) (q : dot_S10000x128_S128x128_S10000x128_1_1_0_0_n_n.contr.Idx) : (dot_S10000x128_S128x128_S10000x128_1_1_0_0_n_n.rhsIdx j q 1).val = (q ⟨0, by decide⟩).val :=
  dot_S10000x128_S128x128_S10000x128_1_1_0_0_n_n.rhsIdx_val_of_single rfl j q

/-- The feature product into the zero accumulator, at (n, o): the sum over the input channels. -/
theorem matmul_feat_apply (l : FVec Ideal S10000x128 .bf16) (r : FVec Ideal S128x128 .bf16) (n : Fin 10000) (o : Fin 128) :
    matmul dot_S10000x128_S128x128_S10000x128_1_1_0_0_n_n none l r (constant (F := Ideal) S10000x128 .f32 0x00000000#32) (ix2 n o)
      = ∑ d : Fin 128, l (ix2 n d) * r (ix2 o d) := by
  show FloatOps.matmul dot_S10000x128_S128x128_S10000x128_1_1_0_0_n_n none l r (constant (F := Ideal) S10000x128 .f32 0x00000000#32) (ix2 n o) = _
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 n o) ((contrEquiv1 dot_S10000x128_S128x128_S10000x128_1_1_0_0_n_n 128 rfl rfl).symm k) = ix2 n k := funext fun a => Fin.ext (by
    match a with
    | ⟨0, _⟩ => exact feat_lhs0 _ _
    | ⟨1, _⟩ => exact (feat_lhs1 _ _).trans hk)
  have er : dot_S10000x128_S128x128_S10000x128_1_1_0_0_n_n.rhsIdx (ix2 n o) ((contrEquiv1 dot_S10000x128_S128x128_S10000x128_1_1_0_0_n_n 128 rfl rfl).symm k) = ix2 o k := funext fun a => Fin.ext (by
    match a with
    | ⟨0, _⟩ => exact feat_rhs0 _ _
    | ⟨1, _⟩ => exact (feat_rhs1 _ _).trans hk)
  rw [el, er]

theorem gather_lhs0 (j : S400x128.Idx) (q : dot_S400x10000_S10000x128_S400x128_1_0_0_1_n_n.contr.Idx) : (dot_S400x10000_S10000x128_S400x128_1_0_0_1_n_n.lhsIdx j q 0).val = (j 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem gather_lhs1 (j : S400x128.Idx) (q : dot_S400x10000_S10000x128_S400x128_1_0_0_1_n_n.contr.Idx) : (dot_S400x10000_S10000x128_S400x128_1_0_0_1_n_n.lhsIdx j q 1).val = (q ⟨0, by decide⟩).val :=
  dot_S400x10000_S10000x128_S400x128_1_0_0_1_n_n.lhsIdx_val_of_single rfl j q
theorem gather_rhs0 (j : S400x128.Idx) (q : dot_S400x10000_S10000x128_S400x128_1_0_0_1_n_n.contr.Idx) : (dot_S400x10000_S10000x128_S400x128_1_0_0_1_n_n.rhsIdx j q 0).val = (q ⟨0, by decide⟩).val :=
  dot_S400x10000_S10000x128_S400x128_1_0_0_1_n_n.rhsIdx_val_of_single rfl j q
theorem gather_rhs1 (j : S400x128.Idx) (q : dot_S400x10000_S10000x128_S400x128_1_0_0_1_n_n.contr.Idx) : (dot_S400x10000_S10000x128_S400x128_1_0_0_1_n_n.rhsIdx j q 1).val = (j 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The gathering product into the zero accumulator, at (r, o): the sum over the nodes. -/
theorem matmul_gather_apply (l : FVec Ideal S400x10000 .bf16) (f : FVec Ideal S10000x128 .bf16) (r : Fin 400) (o : Fin 128) :
    matmul dot_S400x10000_S10000x128_S400x128_1_0_0_1_n_n none l f (constant (F := Ideal) S400x128 .f32 0x00000000#32) (ix2 r o)
      = ∑ k : Fin 10000, l (ix2 r k) * f (ix2 k o) := by
  show FloatOps.matmul dot_S400x10000_S10000x128_S400x128_1_0_0_1_n_n none l f (constant (F := Ideal) S400x128 .f32 0x00000000#32) (ix2 r o) = _
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r o) ((contrEquiv1 dot_S400x10000_S10000x128_S400x128_1_0_0_1_n_n 10000 rfl rfl).symm k) = ix2 r k := funext fun a => Fin.ext (by
    match a with
    | ⟨0, _⟩ => exact gather_lhs0 _ _
    | ⟨1, _⟩ => exact (gather_lhs1 _ _).trans hk)
  have er : dot_S400x10000_S10000x128_S400x128_1_0_0_1_n_n.rhsIdx (ix2 r o) ((contrEquiv1 dot_S400x10000_S10000x128_S400x128_1_0_0_1_n_n 10000 rfl rfl).symm k) = ix2 k o := funext fun a => Fin.ext (by
    match a with
    | ⟨0, _⟩ => exact (gather_rhs0 _ _).trans hk
    | ⟨1, _⟩ => exact gather_rhs1 _ _)
  rw [el, er]

/-! ## The payloads -/

/-- The features at (n, o). -/
theorem feats_apply (x : Vec Ideal S10000x128 .f32) (w : Vec Ideal S128x128 .f32) (n : Fin 10000) (o : Fin 128) :
    k0_pay1 (F := Ideal) x w (ix2 n o) = ∑ d : Fin 128, x (ix2 n d) * w (ix2 o d) := by
  unfold k0_pay1
  simp only [shapeCast_self]
  exact matmul_feat_apply _ _ n o

/-- The output block at (r, o). -/
theorem block_apply (a : Vec Ideal S400x10000 .f32) (f : Vec Ideal S10000x128 .bf16) (b p : Vec Ideal S1x128 .f32)
    (r : Fin 400) (o : Fin 128) :
    k0_pay2 (F := Ideal) a f b p (ix2 r o)
      = prelu (p (ix2 0 o)) ((∑ k : Fin 10000, a (ix2 r k) * f (ix2 k o)) + b (ix2 0 o)) := by
  unfold k0_pay2
  simp only [shapeCast_self]
  show Scalar.select (FloatOps.cmpf .oge
        (matmul dot_S400x10000_S10000x128_S400x128_1_0_0_1_n_n none (truncf .bf16 a bitsLt_bf16_f32) f (constant (F := Ideal) S400x128 .f32 0x00000000#32) (ix2 r o)
          + broadcastTo S400x128 b broadcasts_S1x128_S400x128 (ix2 r o)) (Ideal.ofBits .f32 0x00000000#32))
      (matmul dot_S400x10000_S10000x128_S400x128_1_0_0_1_n_n none (truncf .bf16 a bitsLt_bf16_f32) f (constant (F := Ideal) S400x128 .f32 0x00000000#32) (ix2 r o)
          + broadcastTo S400x128 b broadcasts_S1x128_S400x128 (ix2 r o))
      (broadcastTo S400x128 p broadcasts_S1x128_S400x128 (ix2 r o)
        * (matmul dot_S400x10000_S10000x128_S400x128_1_0_0_1_n_n none (truncf .bf16 a bitsLt_bf16_f32) f (constant (F := Ideal) S400x128 .f32 0x00000000#32) (ix2 r o)
          + broadcastTo S400x128 b broadcasts_S1x128_S400x128 (ix2 r o))) = _
  rw [matmul_gather_apply, broadcastTo_row_apply b, broadcastTo_row_apply p]
  rfl

end Cert.KernelIdeal.Payload

end
-- ==== Proof.LibUnitAxes.lean ====
/-
  Adding and dropping axes of extent one, read at an index, generic in the extents and in the entries' type.

  An array [1, A, B] reshaped to [A, B] reads, at (a, b), the array at (0, a, b).  A scalar reshaped to [1, 1]
  reads the scalar.  A [1, 1] array broadcast to the row [1, C] reads, at (0, c), its one entry.  An array
  [A, B] broadcast onto axes 1 and 2 of [1, A, B] reads, at (z, a, b), the array at (a, b).
-/
import Idealize.ShloMosaic.Lib.ValueIdx
import Idealize.ShloMosaic.Lib.Pipeline.Value

noncomputable section

namespace Cert.Lib.UnitAxes

open Idealize.ShloMosaic Idealize.ShloMosaic.ValueIdx

variable {α : Type}

/-- An array [1, A, B] reshaped to [A, B], read at (a, b), is the array at (0, a, b). -/
theorem shapeCast_dropLead_apply {A B : Nat} (x : (⟨3, ![1, A, B]⟩ : Shape).Idx → α)
    (h : (⟨3, ![1, A, B]⟩ : Shape).ShapeCasts ⟨2, ![A, B]⟩) (a : Fin A) (b : Fin B) :
    shapeCast ⟨2, ![A, B]⟩ x h (ix2 a b) = x (ix3 0 a b) :=
  shapeCast_apply x h (ix2 a b) (ix3 0 a b) (by
    rw [Shape.rowMajor_val_three, Shape.rowMajor_val_two]
    show ((0 : Nat) * A + a.val) * B + b.val = a.val * B + b.val
    rw [Nat.zero_mul, Nat.zero_add])

/-- A scalar reshaped to [1, 1] reads the scalar. -/
theorem shapeCast_scalar_apply (x : (⟨0, ![]⟩ : Shape).Idx → α)
    (h : (⟨0, ![]⟩ : Shape).ShapeCasts ⟨2, ![1, 1]⟩) (j : (⟨2, ![1, 1]⟩ : Shape).Idx) :
    shapeCast ⟨2, ![1, 1]⟩ x h j = x ix0 := by
  unfold shapeCast
  exact congrArg x (funext fun a => a.elim0)

/-- A [1, 1] array broadcast to the row [1, C], read at (0, c), is its one entry. -/
theorem broadcastInDim_unit_row_apply {C : Nat} (x : (⟨2, ![1, 1]⟩ : Shape).Idx → α)
    (h : (⟨2, ![1, 1]⟩ : Shape).BroadcastsInDim ⟨2, ![1, C]⟩ (![0, 1] : Fin 2 → Fin 2)) (c : Fin C) :
    broadcastInDim ⟨2, ![1, C]⟩ ![0, 1] h x (ix2 0 c) = x (ix2 0 0) :=
  broadcastInDim_apply _ h x (ix2 0 c) (ix2 0 0) (fun a => by
    match a with
    | ⟨0, _⟩ => show (0 : Nat) = if (1 : Nat) = 1 then 0 else _; rw [if_pos rfl]
    | ⟨1, _⟩ => show (0 : Nat) = if (1 : Nat) = 1 then 0 else _; rw [if_pos rfl])

/-- An array [A, B] broadcast onto axes 1 and 2 of [1, A, B], read at (z, a, b), is the array at (a, b). -/
theorem broadcastInDim_addLead_apply {A B : Nat} (x : (⟨2, ![A, B]⟩ : Shape).Idx → α)
    (h : (⟨2, ![A, B]⟩ : Shape).BroadcastsInDim ⟨3, ![1, A, B]⟩ (![1, 2] : Fin 2 → Fin 3)) (z : Fin 1) (a : Fin A) (b : Fin B) :
    broadcastInDim ⟨3, ![1, A, B]⟩ ![1, 2] h x (ix3 z a b) = x (ix2 a b) :=
  broadcastInDim_apply _ h x (ix3 z a b) (ix2 a b) (fun d => by
    match d with
    | ⟨0, _⟩ =>
      show a.val = if A = 1 then 0 else a.val
      by_cases hA : A = 1
      · rw [if_pos hA]; have := a.isLt; omega
      · rw [if_neg hA]
    | ⟨1, _⟩ =>
      show b.val = if B = 1 then 0 else b.val
      by_cases hB : B = 1
      · rw [if_pos hB]; have := b.isLt; omega
      · rw [if_neg hB])

end Cert.Lib.UnitAxes

end
-- ==== Proof.Blocks.lean ====
/-
  What the kernel's input blocks are, entry by entry, in terms of the five arguments.

  Before the kernel is launched the feature and adjacency arrays lose their leading axis of extent one, the bias
  becomes a row, and the slope becomes a row of 128 equal entries.  The feature matrix, the weight matrix, the
  bias row and the slope row are each one block, the same at every grid point; the adjacency matrix is cut into
  25 blocks of 400 rows, and point t sees rows 400·t … 400·t + 399.
-/
import proofs.«112729_g62105227100251_cont_9to1c4b_790_3_alg».proof.Proof.Gen.KernelIdeal.Frame
import proofs.«112729_g62105227100251_cont_9to1c4b_790_3_alg».proof.Proof.LibUnitAxes
import proofs.«112729_g62105227100251_cont_9to1c4b_790_3_alg».proof.Proof.LibRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx Cert.Lib.UnitAxes Cert.Lib.Rows

variable {F : FTy → Type} [FloatOps F]
variable (m : (ℓ : Loc nD τ sig) → Buf (Elt F) ℓ)

/-- The block index maps over the grid: four inputs stay at block (0, 0); the adjacency and the output move
    down one block of rows per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The arrays the kernel is launched on -/

theorem V_feat (c : Dev nD) : (V m c main_v0 : S10000x128.Idx → Elt F .f32)
    = shapeCast S10000x128 (m ((c : Thread nD τ).loc main_arg0)) shapeCasts_S1x10000x128_S10000x128 := by
  show StableHlo.after hostOps0 (fun b => m (c, b)) (Proc.devRef .tc main_v0) = _
  after_results
  rfl

theorem V_adj (c : Dev nD) : (V m c main_v1 : S10000x10000.Idx → Elt F .f32)
    = shapeCast S10000x10000 (m ((c : Thread nD τ).loc main_arg1)) shapeCasts_S1x10000x10000_S10000x10000 := by
  show StableHlo.after hostOps0 (fun b => m (c, b)) (Proc.devRef .tc main_v1) = _
  after_results
  rfl

theorem V_bias (c : Dev nD) : (V m c main_v2 : S1x128.Idx → Elt F .f32)
    = shapeCast S1x128 (m ((c : Thread nD τ).loc main_arg3)) shapeCasts_S128_S1x128 := by
  show StableHlo.after hostOps0 (fun b => m (c, b)) (Proc.devRef .tc main_v2) = _
  after_results
  rfl

theorem V_slope (c : Dev nD) : (V m c main_v4 : S1x128.Idx → Elt F .f32)
    = broadcastInDim S1x128 ![0, 1] bcast_S1x1_S1x128_0_1 (shapeCast S1x1 (m ((c : Thread nD τ).loc main_arg4)) shapeCasts_S_S1x1) := by
  show StableHlo.after hostOps0 (fun b => m (c, b)) (Proc.devRef .tc main_v4) = _
  after_results
  rfl

/-! ## The blocks -/

/-- The feature block at any point is the whole feature matrix. -/
theorem feat_block (c : Dev nD) (t : Fin cfg0.N) (n : Fin 10000) (d : Fin 128) :
    (iblk m c 0 t : Vec F S10000x128 .f32) (ix2 n d) = (m ((c : Thread nD τ).loc main_arg0)) (ix3 0 n d) := by
  obtain ⟨e0, e1, -⟩ := idx_facts t
  have hb : (iblk m c 0 t : Vec F S10000x128 .f32) (ix2 n d) = V m c main_v0 (ix2 n d) := by
    unfold iblk
    rw [View.read_apply]
    show V m c main_v0 _ = V m c main_v0 _
    congr 1
    funext a
    apply Fin.ext
    match a with
    | ⟨0, _⟩ => show win0_0.index t (0 : Fin 2) * 10000 + 1 * n.val = n.val; rw [e0]; omega
    | ⟨1, _⟩ => show win0_0.index t (1 : Fin 2) * 128 + 1 * d.val = d.val; rw [e1]; omega
  rw [hb, V_feat]
  exact shapeCast_dropLead_apply _ _ n d

/-- The weight block at any point is the whole weight matrix. -/
theorem weight_block (c : Dev nD) (t : Fin cfg0.N) (o d : Fin 128) :
    (iblk m c 1 t : Vec F S128x128 .f32) (ix2 o d) = (m ((c : Thread nD τ).loc main_arg2)) (ix2 o d) := by
  obtain ⟨-, -, e0, e1, -⟩ := idx_facts t
  have hb : (iblk m c 1 t : Vec F S128x128 .f32) (ix2 o d) = V m c main_arg2 (ix2 o d) := by
    unfold iblk
    rw [View.read_apply]
    show V m c main_arg2 _ = V m c main_arg2 _
    congr 1
    funext a
    apply Fin.ext
    match a with
    | ⟨0, _⟩ => show win0_1.index t (0 : Fin 2) * 128 + 1 * o.val = o.val; rw [e0]; omega
    | ⟨1, _⟩ => show win0_1.index t (1 : Fin 2) * 128 + 1 * d.val = d.val; rw [e1]; omega
  rw [hb, V_main_arg2]

/-- The adjacency block at point t holds rows 400·t … 400·t + 399. -/
theorem adj_block (c : Dev nD) (t : Fin cfg0.N) (r : Fin 400) (k : Fin 10000) (hr : 400 * t.val + r.val < 10000) :
    (iblk m c 2 t : Vec F S400x10000 .f32) (ix2 r k) = (m ((c : Thread nD τ).loc main_arg1)) (ix3 0 ⟨400 * t.val + r.val, hr⟩ k) := by
  obtain ⟨-, -, -, -, e0, e1, -⟩ := idx_facts t
  have hb : (iblk m c 2 t : Vec F S400x10000 .f32) (ix2 r k) = V m c main_v1 (ix2 ⟨400 * t.val + r.val, hr⟩ k) := by
    unfold iblk
    rw [View.read_apply]
    show V m c main_v1 _ = V m c main_v1 _
    congr 1
    funext a
    apply Fin.ext
    match a with
    | ⟨0, _⟩ => show win0_2.index t (0 : Fin 2) * 400 + 1 * r.val = 400 * t.val + r.val; rw [e0]; omega
    | ⟨1, _⟩ => show win0_2.index t (1 : Fin 2) * 10000 + 1 * k.val = k.val; rw [e1]; omega
  rw [hb, V_adj]
  exact shapeCast_dropLead_apply _ _ _ k

/-- The bias block at any point is the bias as a row. -/
theorem bias_block (c : Dev nD) (t : Fin cfg0.N) (o : Fin 128) :
    (iblk m c 3 t : Vec F S1x128 .f32) (ix2 0 o) = (m ((c : Thread nD τ).loc main_arg3)) (ix1 o) := by
  obtain ⟨-, -, -, -, -, -, e0, e1, -⟩ := idx_facts t
  have hb : (iblk m c 3 t : Vec F S1x128 .f32) (ix2 0 o) = V m c main_v2 (ix2 0 o) := by
    unfold iblk
    rw [View.read_apply]
    show V m c main_v2 _ = V m c main_v2 _
    congr 1
    funext a
    apply Fin.ext
    match a with
    | ⟨0, _⟩ => show win0_3.index t (0 : Fin 2) * 1 + 1 * 0 = 0; rw [e0]
    | ⟨1, _⟩ => show win0_3.index t (1 : Fin 2) * 128 + 1 * o.val = o.val; rw [e1]; omega
  rw [hb, V_bias]
  exact shapeCast_vec_row_apply _ _ o

/-- The slope block at any point is the slope repeated along a row. -/
theorem slope_block (c : Dev nD) (t : Fin cfg0.N) (o : Fin 128) :
    (iblk m c 4 t : Vec F S1x128 .f32) (ix2 0 o) = (m ((c : Thread nD τ).loc main_arg4)) ix0 := by
  obtain ⟨-, -, -, -, -, -, -, -, e0, e1, -⟩ := idx_facts t
  have hb : (iblk m c 4 t : Vec F S1x128 .f32) (ix2 0 o) = V m c main_v4 (ix2 0 o) := by
    unfold iblk
    rw [View.read_apply]
    show V m c main_v4 _ = V m c main_v4 _
    congr 1
    funext a
    apply Fin.ext
    match a with
    | ⟨0, _⟩ => show win0_4.index t (0 : Fin 2) * 1 + 1 * 0 = 0; rw [e0]
    | ⟨1, _⟩ => show win0_4.index t (1 : Fin 2) * 128 + 1 * o.val = o.val; rw [e1]; omega
  rw [hb, V_slope]
  exact (broadcastInDim_unit_row_apply _ _ o).trans (shapeCast_scalar_apply _ _ _)

end Cert.KernelIdeal.Blocks

end
-- ==== Proof.Result.lean ====
/-
  The kernel's result array, at the ideal values, is the layer of `Spec.lean` of the five arguments.

  Point t writes back rows 400·t … 400·t + 399 of the region's [10000, 128] result, and what it writes at (r, o)
  is the rectifier of  Σ_k adj(0, 400·t + r, k) · feat k o + bias o  at the slope: the body's block evaluation on
  the blocks point t sees, over the features the first point computed from the whole feature and weight
  matrices.  The 25 blocks tile the 10000 rows (row n is in block n / 400), so the region's result is the layer
  with its leading axis dropped; the broadcast after the region puts that axis back.
-/
import proofs.«112729_g62105227100251_cont_9to1c4b_790_3_alg».proof.Proof.Found
import proofs.«112729_g62105227100251_cont_9to1c4b_790_3_alg».proof.Proof.Payload
import proofs.«112729_g62105227100251_cont_9to1c4b_790_3_alg».proof.Proof.Blocks
import proofs.«112729_g62105227100251_cont_9to1c4b_790_3_alg».proof.Proof.Spec

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.GraphConv Cert.Lib.UnitAxes

variable (m : (ℓ : Loc nD τ sig) → Buf (Elt Ideal) ℓ) (ρ : Dev nD → PrngReg)

/-- The layer of the five argument arrays as launched. -/
abbrev lay (c : Dev nD) : FVec Ideal ⟨3, ![1, 10000, 128]⟩ .f32 :=
  layer (m ((c : Thread nD τ).loc main_arg0)) (m ((c : Thread nD τ).loc main_arg1)) (m ((c : Thread nD τ).loc main_arg2)) (m ((c : Thread nD τ).loc main_arg3)) (m ((c : Thread nD τ).loc main_arg4))

/-- The same without the leading axis: what the region's result array ends holding. -/
def rows (c : Dev nD) : Buf (Elt Ideal) ((c : Thread nD τ).loc main_v5) := fun j => lay m c (ix3 0 (j 0) (j 1))

/-- The features the first point computes are the features of the arguments. -/
theorem feats_at (c : Dev nD) (k : Fin 10000) (o : Fin 128) :
    Found.feats m c (ix2 k o) = feat (m ((c : Thread nD τ).loc main_arg0)) (m ((c : Thread nD τ).loc main_arg2)) k o := by
  unfold Found.feats
  refine (Payload.feats_apply (iblk m c 0 Found.first) (iblk m c 1 Found.first) k o).trans ?_
  unfold feat
  exact Finset.sum_congr rfl fun d _ =>
    congrArg₂ (fun a b : EReal => a * b) (Blocks.feat_block m c Found.first k d) (Blocks.weight_block m c Found.first o d)

/-- What point t writes back is block t of `rows`. -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5, Found.outsAt_eq]
  dsimp only
  obtain ⟨-, -, -, -, -, -, -, -, -, -, e0, e1⟩ := Blocks.idx_facts t
  have hN : cfg0.N = 25 := Found.npts
  have ht : t.val < 25 := lt_of_lt_of_eq t.isLt hN
  funext y
  obtain ⟨r, o, rfl⟩ : ∃ (r : Fin 400) (o : Fin 128), y = ix2 r o := ⟨y 0, y 1, eq_ix2 y⟩
  have hr : 400 * t.val + r.val < 10000 := by have := r.isLt; omega
  rw [View.read_apply]
  have he : ((cfg0.win 5).blk t).view.emb (ix2 r o) = (ix2 ⟨400 * t.val + r.val, hr⟩ o : S10000x128.Idx) := by
    funext a
    apply Fin.ext
    match a with
    | ⟨0, _⟩ => show win0_5.index t (0 : Fin 2) * 400 + 1 * r.val = 400 * t.val + r.val; rw [e0]; omega
    | ⟨1, _⟩ => show win0_5.index t (1 : Fin 2) * 128 + 1 * o.val = o.val; rw [e1]; omega
  show k0_pay2 (F := Ideal) (iblk m c 2 t) (Found.feats m c) (iblk m c 3 t) (iblk m c 4 t) (ix2 r o) = rows m c (((cfg0.win 5).blk t).view.emb (ix2 r o))
  rw [he]
  refine (Payload.block_apply (iblk m c 2 t) (Found.feats m c) (iblk m c 3 t) (iblk m c 4 t) r o).trans ?_
  show _ = prelu ((m ((c : Thread nD τ).loc main_arg4)) ix0) (pre (m ((c : Thread nD τ).loc main_arg0)) (m ((c : Thread nD τ).loc main_arg1)) (m ((c : Thread nD τ).loc main_arg2)) (m ((c : Thread nD τ).loc main_arg3)) ⟨400 * t.val + r.val, hr⟩ o)
  unfold pre
  exact congrArg₂ prelu (Blocks.slope_block m c t o)
    (congrArg₂ (fun a b : EReal => a + b)
      (Finset.sum_congr rfl fun k _ => congrArg₂ (fun a b : EReal => a * b) (Blocks.adj_block m c t r k hr) (feats_at m c k o))
      (Blocks.bias_block m c t o))

/-- An index of the region's result array is in point t's block iff its coordinates are in the block's ranges. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v5).slice (win0_5.rect t)).set ↔ _
  rw [View.set_slice_whole, Rect.mem_set_unit]
  exact Iff.rfl

/-- Row n of the result is written back by point n / 400. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := Found.npts
  have hq : (i 0).val / 400 < cfg0.N := by rw [hN]; omega
  obtain ⟨-, -, -, -, -, -, -, -, -, -, e0, e1⟩ := Blocks.idx_facts ⟨(i 0).val / 400, hq⟩
  refine ⟨⟨(i 0).val / 400, hq⟩, flush0_5 _, ?_⟩
  rw [mem_blk]
  intro a
  match a with
  | ⟨0, _⟩ =>
    show win0_5.index ⟨(i 0).val / 400, hq⟩ (0 : Fin 2) * 400 ≤ (i 0).val ∧ (i 0).val < win0_5.index ⟨(i 0).val / 400, hq⟩ (0 : Fin 2) * 400 + 400
    rw [e0]; dsimp only; omega
  | ⟨1, _⟩ =>
    show win0_5.index ⟨(i 0).val / 400, hq⟩ (1 : Fin 2) * 128 ≤ (i 1).val ∧ (i 1).val < win0_5.index ⟨(i 0).val / 400, hq⟩ (1 : Fin 2) * 128 + 128
    rw [e1]; omega

/-- The region's result array after the run. -/
theorem final (c : Dev nD) : (dats m 0 c).arrAt 5 cfg0.N = rows m c :=
  (dats m 0 c).arrAt_eq_of_cover 5 (rows m c) (fun t _ => flushed_eq m c t) cover

/-- The program's result: the broadcast after the region puts the leading axis back. -/
theorem tail_eq (c : Dev nD) :
    Pipeline.afterTail₀ cfgs (dats m) 0 (V0 m) [hostOps1] c main_v6 = lay m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = rows m c := (Pipeline.withArrays_arr spec0 launch0.win.arr_inj c _ _ 5).trans (final m c)
  rw [e]
  funext i
  obtain ⟨z, n, o, rfl⟩ : ∃ (z : Fin 1) (n : Fin 10000) (o : Fin 128), i = ix3 z n o := ⟨i 0, i 1, i 2, eq_ix3 i⟩
  obtain rfl : z = 0 := Subsingleton.elim _ _
  exact broadcastInDim_addLead_apply (rows m c : S10000x128.Idx → Ideal .f32) bcast_S10000x128_S1x10000x128_1_2 0 n o

/-- THE RUN at the ideal values: every weakly fair execution terminates with the result array at the layer of the
    arguments and the arguments unchanged. -/
theorem run : θ_run defs (onTc (τ := τ) (main (F := Ideal))) ⟨m, fun _ => 0, ρ⟩ fun r => ∀ c : Dev nD,
      r.2.mem ((c.tc : Thread nD τ).loc main_v6) = lay m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefRead.lean ====
/-
  The reference's result, read at an index, is the layer of `Spec.lean`.

  The reference computes the features by one contraction over the input channels, gathers them by a second
  contraction over the nodes (batched over the leading axis of extent one), adds the bias broadcast along the
  nodes, and selects between the sum and the slope times the sum by comparing the sum with zero.  Read at an
  index (b, n, o) each contraction is a plain sum, the bias is read at o, the slope at its one entry, and
  b can only be 0: term for term this is `layer`.
-/
import proofs.«112729_g62105227100251_cont_9to1c4b_790_3_alg».proof.Proof.Gen.ReferenceIdeal.Read
import proofs.«112729_g62105227100251_cont_9to1c4b_790_3_alg».proof.Proof.Spec

noncomputable section

open scoped BigOperators

namespace Cert.ReferenceIdeal.RefValue

open Cert.ReferenceIdeal Cert.ReferenceIdeal.Read Idealize.ShloMosaic Idealize.ShloMosaic.ValueIdx Cert.GraphConv

/-- The batch coordinate of an index of a [1, 10000, 128] array is 0. -/
theorem batch_zero (i : S1x10000x128.Idx) : (i 0).val = 0 := by
  have h : (i 0).val < 1 := (i 0).isLt
  omega

/-- The gathered features plus the bias, as the reference computes them, at an index. -/
theorem sum_at (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal)) (i : S1x10000x128.Idx) :
    val_main_v4 (F := Ideal) x0 x1 x2 x3 i = pre x0 x1 x2 x3 (i 1) (i 2) := by
  have h0 := batch_zero i
  have el : ∀ k : Fin 10000, lidx_main_v1 i k = ix3 0 (i 1) k := fun k => funext fun a => by
    match a with
    | ⟨0, _⟩ => exact Fin.ext h0
    | ⟨1, _⟩ => rfl
    | ⟨2, _⟩ => rfl
  have el0 : ∀ (k : Fin 10000) (d : Fin 128), lidx_main_v0 (ridx_main_v1 i k) d = ix3 0 k d := fun k d => funext fun a => by
    match a with
    | ⟨0, _⟩ => exact Fin.ext h0
    | ⟨1, _⟩ => rfl
    | ⟨2, _⟩ => rfl
  have er0 : ∀ (k : Fin 10000) (d : Fin 128), ridx_main_v0 (ridx_main_v1 i k) d = ix2 (i 2) d := fun k d => funext fun a => by
    match a with
    | ⟨0, _⟩ => rfl
    | ⟨1, _⟩ => rfl
  have eb : idx_main_v2 (idx_main_v3 i) = ix1 (i 2) := funext fun a => by
    match a with
    | ⟨0, _⟩ => rfl
  rw [val_main_v4_apply, val_main_v1_apply, val_main_v3_apply, val_main_v2_apply, eb]
  unfold pre
  refine congrArg (fun z : EReal => z + x3 (ix1 (i 2))) (Finset.sum_congr rfl fun k _ => ?_)
  rw [el, val_main_v0_apply]
  unfold feat
  exact congrArg (fun z : EReal => x1 (ix3 0 (i 1) k) * z) (Finset.sum_congr rfl fun d _ => by rw [el0, er0]; rfl)

/-- The reference's result is the layer. -/
theorem ref_eq_layer (x0 : (⟨S1x10000x128, .f32⟩ : BufTy).Contents (Elt Ideal)) (x1 : (⟨S1x10000x10000, .f32⟩ : BufTy).Contents (Elt Ideal))
    (x2 : (⟨S128x128, .f32⟩ : BufTy).Contents (Elt Ideal)) (x3 : (⟨S128, .f32⟩ : BufTy).Contents (Elt Ideal))
    (x4 : (⟨S_, .f32⟩ : BufTy).Contents (Elt Ideal)) :
    val_main_v9 (F := Ideal) x0 x1 x2 x3 x4 = layer x0 x1 x2 x3 x4 := by
  funext i
  rw [val_main_v9_apply, val_main_v6_apply, val_main_v8_apply, val_main_v5_apply, val_main_cst_apply, val_main_v7_apply, sum_at]
  rfl

end Cert.ReferenceIdeal.RefValue

end
-- ==== Proof.lean ====
/-
  One dense graph-convolution layer, computed in 25 row blocks by a kernel, against its plain reference.

  Both programs compute, for node n and output channel o,
      pre n o = Σ_k adj(0, n, k) · (Σ_d seq(0, k, d) · W(o, d)) + bias o,
  and return  pre  where  pre ≥ 0  and  slope · pre  elsewhere (Proof/Spec.lean).  The reference does so by two
  contractions over whole arrays (Proof/RefRead.lean).  The kernel maps the features once, at its first grid point,
  into a buffer it keeps across the grid, and at point t evaluates rows 400·t … 400·t + 399 from that buffer
  (Proof/Found.lean, Proof/Payload.lean, Proof/Blocks.lean); the 25 blocks tile the rows and the axis of extent one
  is put back after the region (Proof/Result.lean).  On the extended reals a change of float format is the identity
  and the matrix unit's product into a zero accumulator is the plain sum, so the two results are the same nest of
  sums, term for term: no rearrangement is needed, and the finiteness of the inputs is never used.  The kernel's
  idealization rewrote no operation, so it preserves the kernel trivially; the three programs' runs terminate with
  their arguments unchanged by the generated frames and the generated run of the reference.
-/
import proofs.«112729_g62105227100251_cont_9to1c4b_790_3_alg».proof.Defs
import proofs.«112729_g62105227100251_cont_9to1c4b_790_3_alg».proof.Proof.Gen.Kernel
import proofs.«112729_g62105227100251_cont_9to1c4b_790_3_alg».proof.Proof.Gen.Kernel.Skeleton
import proofs.«112729_g62105227100251_cont_9to1c4b_790_3_alg».proof.Proof.Gen.Kernel.Launch
import proofs.«112729_g62105227100251_cont_9to1c4b_790_3_alg».proof.Proof.Gen.Kernel.Points
import proofs.«112729_g62105227100251_cont_9to1c4b_790_3_alg».proof.Proof.Gen.Kernel.Frame
import proofs.«112729_g62105227100251_cont_9to1c4b_790_3_alg».proof.Proof.Gen.KernelIdeal
import proofs.«112729_g62105227100251_cont_9to1c4b_790_3_alg».proof.Proof.Gen.KernelIdeal.Skeleton
import proofs.«112729_g62105227100251_cont_9to1c4b_790_3_alg».proof.Proof.Gen.KernelIdeal.Launch
import proofs.«112729_g62105227100251_cont_9to1c4b_790_3_alg».proof.Proof.Gen.KernelIdeal.Points
import proofs.«112729_g62105227100251_cont_9to1c4b_790_3_alg».proof.Proof.Gen.KernelIdeal.Frame
import proofs.«112729_g62105227100251_cont_9to1c4b_790_3_alg».proof.Proof.Gen.ReferenceIdeal
import proofs.«112729_g62105227100251_cont_9to1c4b_790_3_alg».proof.Proof.Gen.ReferenceIdeal.Run
import proofs.«112729_g62105227100251_cont_9to1c4b_790_3_alg».proof.Proof.Gen.ReferenceIdeal.Read
import proofs.«112729_g62105227100251_cont_9to1c4b_790_3_alg».proof.Proof.Gen.Pre_finite_inputs
import proofs.«112729_g62105227100251_cont_9to1c4b_790_3_alg».proof.Proof.Result
import proofs.«112729_g62105227100251_cont_9to1c4b_790_3_alg».proof.Proof.RefRead
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values both programs end with the layer of the (agreeing) arguments. -/
theorem algebraic : Cert.algebraic_KernelIdeal_ReferenceIdeal := by
  intro m ρ m' ρ' _ hagree
  refine ⟨fun c => Cert.KernelIdeal.Result.lay m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefValue.ref_eq_layer,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
